-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S10x128 1) : IVec S_ 1 :=
  let main_c_5 : IVec S_ 1 := constantI S_ 1 1#1
  let main_v17 : IVec S_ 1 := (fun x v => Host.reduce IntOp.andi x v reducesTo_S10x128_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S10x128 .f32) (main_arg5 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S10x128 .f32 := Host.absf main_arg4
  let main_cst_4 : FVec F S_ .f32 := constant S_ .f32 0x7F800000#32
  let main_v15 : FVec F S10x128 .f32 := broadcastInDim S10x128 ![] bcast_S_S10x128 main_cst_4
  let main_v16 : IVec S10x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x10 : Shape := ⟨2, ![100000, 10]⟩
abbrev S5000x10 : Shape := ⟨2, ![5000, 10]⟩
abbrev S128x10 : Shape := ⟨2, ![128, 10]⟩
abbrev S1700000x10 : Shape := ⟨2, ![1700000, 10]⟩
abbrev S1x10 : Shape := ⟨2, ![1, 10]⟩

abbrev nBuf : Space → Nat
  | .hbm => 86
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S10x128, .f32⟩
  | .hbm, ⟨5, _⟩ => ⟨S10, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x10, .f32⟩
  | .hbm, ⟨67, _⟩ => ⟨S1700000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x10, .f32⟩
  | .hbm, ⟨77, _⟩ => ⟨S1700000x10, .f32⟩
  | .hbm, ⟨78, _⟩ => ⟨S1700000x10, .f32⟩
  | .hbm, ⟨79, _⟩ => ⟨S_, .f32⟩
  | .hbm, ⟨80, _⟩ => ⟨S100000x10, .f32⟩
  | .hbm, ⟨81, _⟩ => ⟨S1700000x1, .i32⟩
  | .hbm, ⟨82, _⟩ => ⟨S100000x10, .f32⟩
  | .hbm, ⟨83, _⟩ => ⟨S1x10, .f32⟩
  | .hbm, ⟨84, _⟩ => ⟨S100000x10, .f32⟩
  | .hbm, ⟨85, _⟩ => ⟨S100000x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S10x128, .f32⟩
  | .local _ .vmem, ⟨8, _⟩ => ⟨S5000x10, .f32⟩
  | .local _ .vmem, ⟨9, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S10x128_S10x128_0_0 : ∀ a, (![0, 0] : Fin 2 → Nat) a + S10x128.size a ≤ S10x128.size a
  h_S10x128 : 0 < S10x128.numel
  transposes_S10x128_p1_0_S128x10 : S10x128.Transposes [1, 0] S128x10
  inb_S5000x10_S5000x10_0_0 : ∀ a, (![0, 0] : Fin 2 → Nat) a + S5000x10.size a ≤ S5000x10.size a
  h_S5000x10 : 0 < S5000x10.numel
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x10_S5000x10_1_0_0_1_n_n_wf : DotDims.WF S5000x128 S128x10 S5000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x128.size a ≤ S10x128.size a
  hwx1_1 : ∀ i : grid1.Coords, EltTy.bits .f32 = 32 ∨ (Rect.block (s := S10x128) S10x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x10.size a ≤ S100000x10.size a
  hwx1_2 : ∀ i : grid1.Coords, EltTy.bits .f32 = 32 ∨ (Rect.block (s := S100000x10) S5000x10.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S10x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x10 : Shape := ⟨2, ![128, 10]⟩
abbrev S100000x10 : Shape := ⟨2, ![100000, 10]⟩
abbrev S1700000x10 : Shape := ⟨2, ![1700000, 10]⟩
abbrev S1x10 : Shape := ⟨2, ![1, 10]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S10x128, .f32⟩
  | .hbm, ⟨5, _⟩ => ⟨S10, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S128x128, .f32⟩
  | .hbm, ⟨11, _⟩ => ⟨S100000x128, .f32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S128x10, .f32⟩
  | .hbm, ⟨68, _⟩ => ⟨S100000x10, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S1700000x1, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x10, .f32⟩
  | .hbm, ⟨115, _⟩ => ⟨S1700000x10, .f32⟩
  | .hbm, ⟨116, _⟩ => ⟨S1700000x10, .f32⟩
  | .hbm, ⟨117, _⟩ => ⟨S_, .f32⟩
  | .hbm, ⟨118, _⟩ => ⟨S100000x10, .f32⟩
  | .hbm, ⟨119, _⟩ => ⟨S1700000x1, .i32⟩
  | .hbm, ⟨120, _⟩ => ⟨S100000x10, .f32⟩
  | .hbm, ⟨121, _⟩ => ⟨S1x10, .f32⟩
  | .hbm, ⟨122, _⟩ => ⟨S100000x10, .f32⟩
  | .hbm, ⟨123, _⟩ => ⟨S100000x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S10x128_S128x10_1_0 : S10x128.Transposes [1, 0] S128x10
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x10_S100000x10_1_0_0_1_n_n_wf : DotDims.WF S100000x128 S128x10 S100000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

class Facts : Prop extends Facts₀ where

variable [Facts]
-- ==== Proof.RunOut.lean ====
/-
  The idealized kernel program's run with its RESULT named.  @main is seven segments — three stretches of host
  operations, the first matrix product's grid, a stretch, the second product's grid, a last stretch — and the
  buffer contents at each boundary are a fold from the launch memory.  Every weakly fair execution terminates
  without a fault, the six argument arrays end as launched, and the result array ends at the last boundary's
  contents of the result buffer: the value the later modules read back, stretch by stretch, to the arguments.
-/
import proofs.«128850_j74517682586571_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters: termination, no fault, the result at the last boundary's contents, the
    arguments as launched. -/
theorem run_out : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunOut

end
-- ==== Proof.Mat1.lean ====
/-
  The first matrix product, read off the grid.  The grid has 20 points; point `t` loads rows 5000·t … 5000·t + 4999 of
  the left array (the node features, 100000 × 128) and the whole right array (128 × 128), and writes back the
  5000 × 128 block whose entry (r, n) is the sum over the 128 features k of left (r, k) · right (n, k): the rounding of
  both operands to half precision is the identity on the extended reals, the transpose turns right (n, k) into the
  (k, n) the contraction asks for, and the accumulator starts from zero.  The 20 blocks tile the result's rows, so the
  result array ends holding, at every (i, n), the sum over k of left (i, k) · right (n, k): `prod`.
-/
import proofs.«128850_j74517682586571_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Mat1

open Cert.KernelIdeal Cert.KernelIdeal.Gen
open Idealize.ShloMosaic Idealize.ShloMosaic.TcCoe Idealize.SL.Sem
open Idealize.ShloMosaic.Pipeline (Dat Cfg Window)

/-! ## The block's product at an index -/

theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `j 0`, feature `k` of the loaded left block. -/
abbrev bl (j : S5000x128.Idx) (k : Fin 128) : S5000x128.Idx := fun a => match a with
  | ⟨0, _⟩ => ⟨(j 0).val, (j 0).isLt⟩
  | ⟨1, _⟩ => ⟨k.val, k.isLt⟩
/-- Row `j 1`, feature `k` of the loaded right array. -/
abbrev br (j : S5000x128.Idx) (k : Fin 128) : S128x128.Idx := fun a => match a with
  | ⟨0, _⟩ => ⟨(j 1).val, (j 1).isLt⟩
  | ⟨1, _⟩ => ⟨k.val, k.isLt⟩

/-- What the body stores, at an index of the block: the sum over the features of left row times right row. -/
theorem pay_apply (x0 : Vec Ideal S5000x128 .f32) (x1 : Vec Ideal S128x128 .f32) (j : S5000x128.Idx) :
    k0_pay1 (F := Ideal) x0 x1 j = ∑ k : Fin 128, x0 (bl j k) * x1 (br j k) := by
  unfold k0_pay1
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = bl j k := funext fun a => Fin.ext (by
    match a with
    | ⟨0, _⟩ => exact lhs_0 _ _
    | ⟨1, _⟩ => exact (lhs_1 _ _).trans hk)
  have er : (transpose S128x128 [1, 0] (truncf (F := Ideal) .bf16 x1 bitsLt_bf16_f32) transposes_S128x128_p1_0_S128x128 : FVec Ideal S128x128 .bf16)
      (dot_S5000x128_S128x128_S5000x128_1_0_0_1_n_n.rhsIdx j ((ValueIdx.contrEquiv1 dot_S5000x128_S128x128_S5000x128_1_0_0_1_n_n 128 rfl rfl).symm k)) = x1 (br j k) :=
    transpose_apply [1, 0] (truncf (F := Ideal) .bf16 x1 bitsLt_bf16_f32) transposes_S128x128_p1_0_S128x128
      (dot_S5000x128_S128x128_S5000x128_1_0_0_1_n_n.rhsIdx j ((ValueIdx.contrEquiv1 dot_S5000x128_S128x128_S5000x128_1_0_0_1_n_n 128 rfl rfl).symm k)) (br j k) (fun b => by
      match b with
      | ⟨0, _⟩ => exact ((rhs_0 j _).trans hk).symm
      | ⟨1, _⟩ => exact (rhs_1 j _).symm)
  rw [el]
  exact congrArg (x0 (bl j k) * ·) er

/-! ## From the 20 blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Row `i 0`, feature `k` of the left array. -/
abbrev gl (i : S100000x128.Idx) (k : Fin 128) : S100000x128.Idx := fun a => match a with
  | ⟨0, _⟩ => ⟨(i 0).val, (i 0).isLt⟩
  | ⟨1, _⟩ => ⟨k.val, k.isLt⟩
/-- Row `i 1`, feature `k` of the right array. -/
abbrev gr (i : S100000x128.Idx) (k : Fin 128) : S128x128.Idx := fun a => match a with
  | ⟨0, _⟩ => ⟨(i 1).val, (i 1).isLt⟩
  | ⟨1, _⟩ => ⟨k.val, k.isLt⟩

/-- The product `left · rightᵀ` as one array: entry (i, n) is the sum over the features of left (i, k) · right (n, k). -/
def prod (X : S100000x128.Idx → EReal) (W : S128x128.Idx → EReal) : S100000x128.Idx → EReal :=
  fun i => ∑ k : Fin 128, X (gl i k) * W (gr i k)

/-- The printed block maps over the grid: the left window moves down the rows with the result's window, the right
    window stays on the whole array, the result's window has one block per point across its columns. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row blocks of the result is some point's. -/
theorem idx_onto : ∀ q : Fin 20, ∃ t : Fin cfg0.N, win0_2.index t = ![q.val, 0] :=
  (by decide +kernel : ∀ q : Fin 20, ∃ t : Fin grid0.N, win0_2.index t = ![q.val, 0])

/-- What point `t` writes back is block `t` of the product of the arrays the grid is entered with. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  refine (pay_apply _ _ j).trans ?_
  show _ = prod (V c main_arg0) (V c main_arg2) (((cfg0.win 2).blk t).view.emb j)
  unfold prod
  refine Finset.sum_congr rfl fun k _ => ?_
  have h0 : ((cfg0.win 0).blk t).view.emb (bl j k) = gl (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (br j k) = gr (((cfg0.win 2).blk t).view.emb j) k := by
    funext a; apply Fin.ext
    match a with
    | ⟨0, _⟩ => show win0_1.index t (0 : Fin 2) * 128 + 1 * (j 1).val = win0_2.index t (1 : Fin 2) * 128 + 1 * (j 1).val; omega
    | ⟨1, _⟩ => show win0_1.index t (1 : Fin 2) * 128 + 1 * k.val = k.val; omega
  have hL : iblk0 V c 0 t (bl j k) = V c main_arg0 (gl (((cfg0.win 2).blk t).view.emb j) k) := congrArg (V c main_arg0) h0
  have hR : iblk0 V c 1 t (br j k) = V c main_arg2 (gr (((cfg0.win 2).blk t).view.emb j) k) := congrArg (V c main_arg2) h1
  rw [hL, hR]

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The blocks cover the result: row `r` lies in the block of the point whose row block is `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the grid: the product of the arrays the grid is entered with. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) covered

end Cert.KernelIdeal.Mat1

end
-- ==== Proof.Mat2.lean ====
/-
  The second matrix product, read off the grid.  The grid has 20 points; point `t` loads rows 5000·t … 5000·t + 4999 of
  the left array (the first round's output, 100000 × 128) and the whole right array (10 × 128), and writes back the
  5000 × 10 block whose entry (r, n) is the sum over the 128 features k of left (r, k) · right (n, k): the rounding of
  both operands to half precision is the identity on the extended reals (and so is the left block's cast to its own shape), the transpose turns right (n, k) into the
  (k, n) the contraction asks for, and the accumulator starts from zero.  The 20 blocks tile the result's rows, so the
  result array ends holding, at every (i, n), the sum over k of left (i, k) · right (n, k): `prod`.
-/
import proofs.«128850_j74517682586571_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Mat2

open Cert.KernelIdeal Cert.KernelIdeal.Gen
open Idealize.ShloMosaic Idealize.ShloMosaic.TcCoe Idealize.SL.Sem
open Idealize.ShloMosaic.Pipeline (Dat Cfg Window)

/-! ## The block's product at an index -/

theorem lhs_0 (j : S5000x10.Idx) (q : dot_S5000x128_S128x10_S5000x10_1_0_0_1_n_n.contr.Idx) :
    (dot_S5000x128_S128x10_S5000x10_1_0_0_1_n_n.lhsIdx j q 0).val = (j 0).val := by
  unfold DotDims.lhsIdx
  rw [dif_neg (show ¬(0 : Fin S5000x128.rank) ∈ dot_S5000x128_S128x10_S5000x10_1_0_0_1_n_n.lhsBatch by decide), dif_pos (show (0 : Fin S5000x128.rank) ∈ dot_S5000x128_S128x10_S5000x10_1_0_0_1_n_n.lhsNonContracting by decide)]
  rfl
theorem lhs_1 (j : S5000x10.Idx) (q : dot_S5000x128_S128x10_S5000x10_1_0_0_1_n_n.contr.Idx) :
    (dot_S5000x128_S128x10_S5000x10_1_0_0_1_n_n.lhsIdx j q 1).val = (q ⟨0, by decide⟩).val :=
  dot_S5000x128_S128x10_S5000x10_1_0_0_1_n_n.lhsIdx_val_of_single rfl j q
theorem rhs_0 (j : S5000x10.Idx) (q : dot_S5000x128_S128x10_S5000x10_1_0_0_1_n_n.contr.Idx) :
    (dot_S5000x128_S128x10_S5000x10_1_0_0_1_n_n.rhsIdx j q 0).val = (q ⟨0, by decide⟩).val :=
  dot_S5000x128_S128x10_S5000x10_1_0_0_1_n_n.rhsIdx_val_of_single rfl j q
theorem rhs_1 (j : S5000x10.Idx) (q : dot_S5000x128_S128x10_S5000x10_1_0_0_1_n_n.contr.Idx) :
    (dot_S5000x128_S128x10_S5000x10_1_0_0_1_n_n.rhsIdx j q 1).val = (j 1).val := by
  unfold DotDims.rhsIdx
  rw [dif_neg (show ¬(1 : Fin S128x10.rank) ∈ dot_S5000x128_S128x10_S5000x10_1_0_0_1_n_n.rhsBatch by decide), dif_pos (show (1 : Fin S128x10.rank) ∈ dot_S5000x128_S128x10_S5000x10_1_0_0_1_n_n.rhsNonContracting by decide)]
  rfl

/-- Row `j 0`, feature `k` of the loaded left block. -/
abbrev bl (j : S5000x10.Idx) (k : Fin 128) : S5000x128.Idx := fun a => match a with
  | ⟨0, _⟩ => ⟨(j 0).val, (j 0).isLt⟩
  | ⟨1, _⟩ => ⟨k.val, k.isLt⟩
/-- Row `j 1`, feature `k` of the loaded right array. -/
abbrev br (j : S5000x10.Idx) (k : Fin 128) : S10x128.Idx := fun a => match a with
  | ⟨0, _⟩ => ⟨(j 1).val, (j 1).isLt⟩
  | ⟨1, _⟩ => ⟨k.val, k.isLt⟩

/-- What the body stores, at an index of the block: the sum over the features of left row times right row. -/
theorem pay_apply (x0 : Vec Ideal S5000x128 .f32) (x1 : Vec Ideal S10x128 .f32) (j : S5000x10.Idx) :
    k1_pay1 (F := Ideal) x0 x1 j = ∑ k : Fin 128, x0 (bl j k) * x1 (br j k) := by
  unfold k1_pay1
  refine (Ideal.matmul_constant_zero_apply dot_S5000x128_S128x10_S5000x10_1_0_0_1_n_n none _ _ j).trans ?_
  rw [← Equiv.sum_comp (ValueIdx.contrEquiv1 dot_S5000x128_S128x10_S5000x10_1_0_0_1_n_n 128 rfl rfl).symm]
  refine Finset.sum_congr rfl fun k _ => ?_
  have hk := ValueIdx.contrEquiv1_symm_val dot_S5000x128_S128x10_S5000x10_1_0_0_1_n_n 128 rfl rfl k
  have el : dot_S5000x128_S128x10_S5000x10_1_0_0_1_n_n.lhsIdx j ((ValueIdx.contrEquiv1 dot_S5000x128_S128x10_S5000x10_1_0_0_1_n_n 128 rfl rfl).symm k) = bl j k := funext fun a => Fin.ext (by
    match a with
    | ⟨0, _⟩ => exact lhs_0 _ _
    | ⟨1, _⟩ => exact (lhs_1 _ _).trans hk)
  have er : (transpose S128x10 [1, 0] (truncf (F := Ideal) .bf16 x1 bitsLt_bf16_f32) transposes_S10x128_p1_0_S128x10 : FVec Ideal S128x10 .bf16)
      (dot_S5000x128_S128x10_S5000x10_1_0_0_1_n_n.rhsIdx j ((ValueIdx.contrEquiv1 dot_S5000x128_S128x10_S5000x10_1_0_0_1_n_n 128 rfl rfl).symm k)) = x1 (br j k) :=
    transpose_apply [1, 0] (truncf (F := Ideal) .bf16 x1 bitsLt_bf16_f32) transposes_S10x128_p1_0_S128x10
      (dot_S5000x128_S128x10_S5000x10_1_0_0_1_n_n.rhsIdx j ((ValueIdx.contrEquiv1 dot_S5000x128_S128x10_S5000x10_1_0_0_1_n_n 128 rfl rfl).symm k)) (br j k) (fun b => by
      match b with
      | ⟨0, _⟩ => exact ((rhs_0 j _).trans hk).symm
      | ⟨1, _⟩ => exact (rhs_1 j _).symm)
  rw [el]
  have e0 : (shapeCast S5000x128 x0 shapeCasts_S5000x128_S5000x128 : FVec Ideal S5000x128 .f32) (bl j k) = x0 (bl j k) :=
    congrFun (shapeCast_self x0 shapeCasts_S5000x128_S5000x128) (bl j k)
  exact congrArg₂ (· * ·) e0 er

/-! ## From the 20 blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Row `i 0`, feature `k` of the left array. -/
abbrev gl (i : S100000x10.Idx) (k : Fin 128) : S100000x128.Idx := fun a => match a with
  | ⟨0, _⟩ => ⟨(i 0).val, (i 0).isLt⟩
  | ⟨1, _⟩ => ⟨k.val, k.isLt⟩
/-- Row `i 1`, feature `k` of the right array. -/
abbrev gr (i : S100000x10.Idx) (k : Fin 128) : S10x128.Idx := fun a => match a with
  | ⟨0, _⟩ => ⟨(i 1).val, (i 1).isLt⟩
  | ⟨1, _⟩ => ⟨k.val, k.isLt⟩

/-- The product `left · rightᵀ` as one array: entry (i, n) is the sum over the features of left (i, k) · right (n, k). -/
def prod (X : S100000x128.Idx → EReal) (W : S10x128.Idx → EReal) : S100000x10.Idx → EReal :=
  fun i => ∑ k : Fin 128, X (gl i k) * W (gr i k)

/-- The printed block maps over the grid: the left window moves down the rows with the result's window, the right
    window stays on the whole array, the result's window has one block per point across its columns. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every one of the 20 row blocks of the result is some point's. -/
theorem idx_onto : ∀ q : Fin 20, ∃ t : Fin cfg1.N, win1_2.index t = ![q.val, 0] :=
  (by decide +kernel : ∀ q : Fin 20, ∃ t : Fin grid1.N, win1_2.index t = ![q.val, 0])

/-- What point `t` writes back is block `t` of the product of the arrays the grid is entered with. -/
theorem flushed_eq (c : Dev nD) (t : Fin cfg1.N) :
    (dat1 V c).flushed 2 t = ((cfg1.win 2).blk t).view.read (Elt Ideal) (prod (V c main_v46) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S10x128) hz]
  obtain ⟨e0, e1, e2, e3, e4, e5⟩ := idx_facts t
  funext j
  refine (pay_apply _ _ j).trans ?_
  show _ = prod (V c main_v46) (V c main_arg4) (((cfg1.win 2).blk t).view.emb j)
  unfold prod
  refine Finset.sum_congr rfl fun k _ => ?_
  have h0 : ((cfg1.win 0).blk t).view.emb (bl j k) = gl (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (br j k) = gr (((cfg1.win 2).blk t).view.emb j) k := by
    funext a; apply Fin.ext
    match a with
    | ⟨0, _⟩ => show win1_1.index t (0 : Fin 2) * 10 + 1 * (j 1).val = win1_2.index t (1 : Fin 2) * 10 + 1 * (j 1).val; omega
    | ⟨1, _⟩ => show win1_1.index t (1 : Fin 2) * 128 + 1 * k.val = k.val; omega
  have hL : iblk1 V c 0 t (bl j k) = V c main_v46 (gl (((cfg1.win 2).blk t).view.emb j) k) := congrArg (V c main_v46) h0
  have hR : iblk1 V c 1 t (br j k) = V c main_arg4 (gr (((cfg1.win 2).blk t).view.emb j) k) := congrArg (V c main_arg4) h1
  rw [hL, hR]

/-- An index of the result is in point `t`'s block iff each coordinate is in the block's range on its axis. -/
theorem mem_blk (t : Fin cfg1.N) (i : S100000x10.Idx) :
    i ∈ ((cfg1.win 2).blk t).view.set ↔ ∀ a : Fin 2, win1_2.index t a * S5000x10.size a ≤ (i a).val ∧ (i a).val < win1_2.index t a * S5000x10.size a + S5000x10.size a := by
  show i ∈ ((View.whole main_v47).slice (win1_2.rect t)).set ↔ _
  rw [View.set_slice_whole, Rect.mem_set_unit]
  exact Iff.rfl

/-- The blocks cover the result: row `r` lies in the block of the point whose row block is `r / 5000`. -/
theorem covered (i : S100000x10.Idx) :
    ∃ t : Fin cfg1.N, (cfg1.win 2).flush t = true ∧ i ∈ ((cfg1.win 2).blk t).view.set := by
  have hi0 : (i 0).val < 100000 := (i 0).isLt
  have hi1 : (i 1).val < 10 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 10 ≤ (i 1).val ∧ (i 1).val < win1_2.index t (1 : Fin 2) * 10 + 10; omega

/-- The result array after the grid: the product of the arrays the grid is entered with. -/
theorem final (c : Dev nD) : (dat1 V c).arrAt 2 cfg1.N = prod (V c main_v46) (V c main_arg4) :=
  (dat1 V c).arrAt_eq_of_cover 2 (prod (V c main_v46) (V c main_arg4)) (fun t _ => flushed_eq V c t) covered

end Cert.KernelIdeal.Mat2

end
-- ==== Proof.Spec.lean ====
/-
  Two rounds of normalised neighbourhood averaging on a graph of 100000 nodes, as ONE function of the six arguments.

  The edge list `e` (2 × 1600000 words) names a source and a destination per edge; a self-loop is added at every
  node, so each round sums over 1700000 edges.  An index below zero is read as counted from the end (the word plus
  100000).  The in-degree `deg` of a node counts the edges that arrive at it, its weight is `deg^(-1/2)` where the
  degree is positive and 0 elsewhere, and an edge's weight is the product of the weights of its two ends.
  One round takes node features `h`, gathers the source's row along every edge, scales it by the edge's weight, sums
  the scaled rows into the destination's row, and adds a bias row.  The whole function is

      round₂ (round₁ (x · W1ᵀ) · W2ᵀ),

  the two products `x · Wᵀ` being plain matrix products (a contraction over the 128 input features).
  Nothing here is specific to a float instance: the operations are the host program's, named.
-/
import proofs.«128850_j74517682586571_1_alg».proof.Proof.Gen.ReferenceIdeal
import Idealize.ShloMosaic.PureOps.Ideal

noncomputable section

namespace Cert.Gcn

open Cert.ReferenceIdeal Cert.ReferenceIdeal.Gen Idealize.ShloMosaic Idealize.ShloMosaic.TcCoe

variable {F : FTy → Type} [FloatOps F]

/-- The edges' source nodes, the 100000 self-loops appended. -/
def srcIdx (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' destination nodes, the 100000 self-loops appended. -/
def dstIdx (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A list of node indices as a column of gather positions: a negative index is counted from the end. -/
def wrapCol (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- A list of node indices as a column of scatter positions, as it stands. -/
def col (v : (⟨S1700000, .i32⟩ : BufTy).Contents (Elt F)) : (⟨S1700000x1, .i32⟩ : BufTy).Contents (Elt F) :=
  broadcastInDim S1700000x1 ![0] bcast_S1700000_S1700000x1_0 v

/-- The in-degree of every node: one summed into the destination of every edge. -/
def deg (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (col (F := F) (dstIdx (F := F) e)) (broadcastInDim S1700000 ![] bcast_S_S1700000 (constant S_ .f32 0x3F800000#32))

/-- Where the condition holds the first array, elsewhere the scalar `z` at every node. -/
def whereElse (p : (⟨S100000, .i1⟩ : BufTy).Contents (Elt F)) (r : (⟨S100000, .f32⟩ : BufTy).Contents (Elt F))
    (z : (⟨S_, .f32⟩ : BufTy).Contents (Elt F)) : (⟨S100000, .f32⟩ : BufTy).Contents (Elt F) :=
  select p r (broadcastInDim S100000 ![] bcast_S_S100000 (id z))

/-- A node's weight: the inverse square root of its in-degree where that is positive, zero elsewhere. -/
def nodeWeight (e : (⟨S2x1600000, .i32⟩ : BufTy).Contents (Elt F)) : (⟨S100000, .f32⟩ : BufTy).Contents (Elt F) :=
  whereElse (F := F) (cmpf (F := F) .ogt (deg (F := F) e) (broadcastInDim S100000 ![] bcast_S_S100000 (constant S_ .f32 0x00000000#32))) (Host.rsqrt (deg (F := F) e)) (constant S_ .f32 0x00000000#32)

/-- The edges' weights from the nodes' weights: the product of the weights of an edge's source and destination. -/
def edgeWeightOn (nw : (⟨S100000, .f32⟩ : BufTy).Contents (Elt F)) (src dst : (⟨S1700000, .i32⟩ : BufTy).Contents (Elt F)) :
    (⟨S1700000, .f32⟩ : BufTy).Contents (Elt F) :=
  mulf (Host.gather gather_S100000_S1700000x1_S1700000_n_0_n_n_0_1_1 nw (wrapCol (F := F) src)) (Host.gather gather_S100000_S1700000x1_S1700000_n_0_n_n_0_1_1 nw (wrapCol (F := F) dst))

/-- An edge's weight over the graph the edge list `e` gives. -/
def edgeWeight (e : (⟨S2x1600000, .i32⟩ : BufTy).Contents (Elt F)) : (⟨S1700000, .f32⟩ : BufTy).Contents (Elt F) :=
  edgeWeightOn (F := F) (nodeWeight (F := F) e) (srcIdx (F := F) e) (dstIdx (F := F) e)

/-- One round on 128 features, from the edges' sources, destinations and weights: along every edge the source's row
    times the edge's weight, summed into the destination's row; then the bias row added to every node. -/
def roundOn1 (h : (⟨S100000x128, .f32⟩ : BufTy).Contents (Elt F)) (src dst : (⟨S1700000, .i32⟩ : BufTy).Contents (Elt F))
    (wgt : (⟨S1700000, .f32⟩ : BufTy).Contents (Elt F)) (b : (⟨S128, .f32⟩ : BufTy).Contents (Elt F)) :
    (⟨S100000x128, .f32⟩ : BufTy).Contents (Elt F) :=
  addf (Host.scatterAdd scatter_S100000x128_S1700000x1_S1700000x128_1_0_0_1 (broadcastInDim S100000x128 ![] bcast_S_S100000x128 (constant S_ .f32 0x00000000#32)) (col (F := F) dst) (mulf (broadcastInDim S1700000x128 ![0, 1] bcast_S1700000x1_S1700000x128_0_1 (broadcastInDim S1700000x1 ![0] bcast_S1700000_S1700000x1_0 wgt)) (Host.gather gather_S100000x128_S1700000x1_S1700000x128_1_0_n_n_0_1_1128 h (wrapCol (F := F) src)))) (broadcastInDim S100000x128 ![0, 1] bcast_S1x128_S100000x128_0_1 (broadcastInDim S1x128 ![1] bcast_S128_S1x128_1 b))

/-- The same on 10 features. -/
def roundOn2 (h : (⟨S100000x10, .f32⟩ : BufTy).Contents (Elt F)) (src dst : (⟨S1700000, .i32⟩ : BufTy).Contents (Elt F))
    (wgt : (⟨S1700000, .f32⟩ : BufTy).Contents (Elt F)) (b : (⟨S10, .f32⟩ : BufTy).Contents (Elt F)) :
    (⟨S100000x10, .f32⟩ : BufTy).Contents (Elt F) :=
  addf (Host.scatterAdd scatter_S100000x10_S1700000x1_S1700000x10_1_0_0_1 (broadcastInDim S100000x10 ![] bcast_S_S100000x10 (constant S_ .f32 0x00000000#32)) (col (F := F) dst) (mulf (broadcastInDim S1700000x10 ![0, 1] bcast_S1700000x1_S1700000x10_0_1 (broadcastInDim S1700000x1 ![0] bcast_S1700000_S1700000x1_0 wgt)) (Host.gather gather_S100000x10_S1700000x1_S1700000x10_1_0_n_n_0_1_110 h (wrapCol (F := F) src)))) (broadcastInDim S100000x10 ![0, 1] bcast_S1x10_S100000x10_0_1 (broadcastInDim S1x10 ![1] bcast_S10_S1x10_1 b))

/-- The first round, on 128 features, over the graph the edge list `e` gives. -/
def round1 (h : (⟨S100000x128, .f32⟩ : BufTy).Contents (Elt F)) (e : (⟨S2x1600000, .i32⟩ : BufTy).Contents (Elt F))
    (b : (⟨S128, .f32⟩ : BufTy).Contents (Elt F)) : (⟨S100000x128, .f32⟩ : BufTy).Contents (Elt F) :=
  roundOn1 h (srcIdx (F := F) e) (dstIdx (F := F) e) (edgeWeight (F := F) e) b

/-- The second round, on 10 features: the same sum over the same edges with the same weights. -/
def round2 (h : (⟨S100000x10, .f32⟩ : BufTy).Contents (Elt F)) (e : (⟨S2x1600000, .i32⟩ : BufTy).Contents (Elt F))
    (b : (⟨S10, .f32⟩ : BufTy).Contents (Elt F)) : (⟨S100000x10, .f32⟩ : BufTy).Contents (Elt F) :=
  roundOn2 h (srcIdx (F := F) e) (dstIdx (F := F) e) (edgeWeight (F := F) e) b

/-- The first linear map: `x · W1ᵀ`, 128 features to 128. -/
def lin1 (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x (transpose S128x128 [1, 0] w transposes_S128x128_S128x128_1_0)

/-- The second linear map: `x · W2ᵀ`, 128 features to 10. -/
def lin2 (x : (⟨S100000x128, .f32⟩ : BufTy).Contents (Elt F)) (w : (⟨S10x128, .f32⟩ : BufTy).Contents (Elt F)) :
    (⟨S100000x10, .f32⟩ : BufTy).Contents (Elt F) :=
  Host.dotGeneral dot_S100000x128_S128x10_S100000x10_1_0_0_1_n_n none x (transpose S128x10 [1, 0] w transposes_S10x128_S128x10_1_0)

/-- The whole function: both rounds, each after its linear map. -/
def net (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S10x128, .f32⟩ : BufTy).Contents (Elt F)) (b2 : (⟨S10, .f32⟩ : BufTy).Contents (Elt F)) :
    (⟨S100000x10, .f32⟩ : BufTy).Contents (Elt F) :=
  round2 (lin2 (round1 (lin1 x w1) e b1) w2) e b2

end Cert.Gcn

end
-- ==== Proof.LinIsProd.lean ====
/-
  The host's two linear maps are the two product arrays.  On the extended reals a contraction of `x` (100000 × 128) with
  the transpose of `w` (N × 128) over the 128 features is, at (i, n), the sum over k of x (i, k) · wᵀ (k, n), and the
  transposed array at (k, n) is w at (n, k).
-/
import proofs.«128850_j74517682586571_1_alg».proof.Proof.Spec
import proofs.«128850_j74517682586571_1_alg».proof.Proof.Mat1
import proofs.«128850_j74517682586571_1_alg».proof.Proof.Mat2

set_option maxRecDepth 16384

noncomputable section

namespace Cert.Gcn

open Cert.ReferenceIdeal Cert.ReferenceIdeal.Gen Idealize.ShloMosaic Idealize.ShloMosaic.TcCoe Idealize.SL.Sem

/-! ## `lin1` -/

theorem al_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem al_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem ar_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem ar_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's contraction of `x` with the transposed weights is the product array: entry (i, n) is the sum over
    the features of x (i, k) · w (n, k). -/
theorem lin1_eq_prod (X : (⟨S100000x128, .f32⟩ : BufTy).Contents (Elt Ideal)) (W : (⟨S128x128, .f32⟩ : BufTy).Contents (Elt Ideal)) :
    lin1 (F := Ideal) X W = Cert.KernelIdeal.Mat1.prod X W := by
  funext i
  unfold lin1 Cert.KernelIdeal.Mat1.prod
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = Cert.KernelIdeal.Mat1.gl i k := funext fun a => Fin.ext (by
    match a with
    | ⟨0, _⟩ => exact al_0 _ _
    | ⟨1, _⟩ => exact (al_1 _ _).trans hk)
  have er : (transpose S128x128 [1, 0] W transposes_S128x128_S128x128_1_0 : FVec Ideal S128x128 .f32)
      (dot_S100000x128_S128x128_S100000x128_1_0_0_1_n_n.rhsIdx i ((ValueIdx.contrEquiv1 dot_S100000x128_S128x128_S100000x128_1_0_0_1_n_n 128 rfl rfl).symm k)) = W (Cert.KernelIdeal.Mat1.gr i k) :=
    transpose_apply [1, 0] W transposes_S128x128_S128x128_1_0
      (dot_S100000x128_S128x128_S100000x128_1_0_0_1_n_n.rhsIdx i ((ValueIdx.contrEquiv1 dot_S100000x128_S128x128_S100000x128_1_0_0_1_n_n 128 rfl rfl).symm k)) (Cert.KernelIdeal.Mat1.gr i k) (fun b => by
      match b with
      | ⟨0, _⟩ => exact ((ar_0 i _).trans hk).symm
      | ⟨1, _⟩ => exact (ar_1 i _).symm)
  rw [el]
  exact congrArg (X (Cert.KernelIdeal.Mat1.gl i k) * ·) er

/-! ## `lin2` -/

theorem bl_0 (i : S100000x10.Idx) (q : dot_S100000x128_S128x10_S100000x10_1_0_0_1_n_n.contr.Idx) :
    (dot_S100000x128_S128x10_S100000x10_1_0_0_1_n_n.lhsIdx i q 0).val = (i 0).val := by
  unfold DotDims.lhsIdx
  rw [dif_neg (show ¬(0 : Fin S100000x128.rank) ∈ dot_S100000x128_S128x10_S100000x10_1_0_0_1_n_n.lhsBatch by decide), dif_pos (show (0 : Fin S100000x128.rank) ∈ dot_S100000x128_S128x10_S100000x10_1_0_0_1_n_n.lhsNonContracting by decide)]
  rfl
theorem bl_1 (i : S100000x10.Idx) (q : dot_S100000x128_S128x10_S100000x10_1_0_0_1_n_n.contr.Idx) :
    (dot_S100000x128_S128x10_S100000x10_1_0_0_1_n_n.lhsIdx i q 1).val = (q ⟨0, by decide⟩).val :=
  dot_S100000x128_S128x10_S100000x10_1_0_0_1_n_n.lhsIdx_val_of_single rfl i q
theorem br_0 (i : S100000x10.Idx) (q : dot_S100000x128_S128x10_S100000x10_1_0_0_1_n_n.contr.Idx) :
    (dot_S100000x128_S128x10_S100000x10_1_0_0_1_n_n.rhsIdx i q 0).val = (q ⟨0, by decide⟩).val :=
  dot_S100000x128_S128x10_S100000x10_1_0_0_1_n_n.rhsIdx_val_of_single rfl i q
theorem br_1 (i : S100000x10.Idx) (q : dot_S100000x128_S128x10_S100000x10_1_0_0_1_n_n.contr.Idx) :
    (dot_S100000x128_S128x10_S100000x10_1_0_0_1_n_n.rhsIdx i q 1).val = (i 1).val := by
  unfold DotDims.rhsIdx
  rw [dif_neg (show ¬(1 : Fin S128x10.rank) ∈ dot_S100000x128_S128x10_S100000x10_1_0_0_1_n_n.rhsBatch by decide), dif_pos (show (1 : Fin S128x10.rank) ∈ dot_S100000x128_S128x10_S100000x10_1_0_0_1_n_n.rhsNonContracting by decide)]
  rfl

/-- The host's contraction of `x` with the transposed weights is the product array: entry (i, n) is the sum over
    the features of x (i, k) · w (n, k). -/
theorem lin2_eq_prod (X : (⟨S100000x128, .f32⟩ : BufTy).Contents (Elt Ideal)) (W : (⟨S10x128, .f32⟩ : BufTy).Contents (Elt Ideal)) :
    lin2 (F := Ideal) X W = Cert.KernelIdeal.Mat2.prod X W := by
  funext i
  unfold lin2 Cert.KernelIdeal.Mat2.prod
  simp only [Host.dotGeneral]
  rw [Ideal.dotGeneral_apply, ← Equiv.sum_comp (ValueIdx.contrEquiv1 dot_S100000x128_S128x10_S100000x10_1_0_0_1_n_n 128 rfl rfl).symm]
  refine Finset.sum_congr rfl fun k _ => ?_
  have hk := ValueIdx.contrEquiv1_symm_val dot_S100000x128_S128x10_S100000x10_1_0_0_1_n_n 128 rfl rfl k
  have el : dot_S100000x128_S128x10_S100000x10_1_0_0_1_n_n.lhsIdx i ((ValueIdx.contrEquiv1 dot_S100000x128_S128x10_S100000x10_1_0_0_1_n_n 128 rfl rfl).symm k) = Cert.KernelIdeal.Mat2.gl i k := funext fun a => Fin.ext (by
    match a with
    | ⟨0, _⟩ => exact bl_0 _ _
    | ⟨1, _⟩ => exact (bl_1 _ _).trans hk)
  have er : (transpose S128x10 [1, 0] W transposes_S10x128_S128x10_1_0 : FVec Ideal S128x10 .f32)
      (dot_S100000x128_S128x10_S100000x10_1_0_0_1_n_n.rhsIdx i ((ValueIdx.contrEquiv1 dot_S100000x128_S128x10_S100000x10_1_0_0_1_n_n 128 rfl rfl).symm k)) = W (Cert.KernelIdeal.Mat2.gr i k) :=
    transpose_apply [1, 0] W transposes_S10x128_S128x10_1_0
      (dot_S100000x128_S128x10_S100000x10_1_0_0_1_n_n.rhsIdx i ((ValueIdx.contrEquiv1 dot_S100000x128_S128x10_S100000x10_1_0_0_1_n_n 128 rfl rfl).symm k)) (Cert.KernelIdeal.Mat2.gr i k) (fun b => by
      match b with
      | ⟨0, _⟩ => exact ((br_0 i _).trans hk).symm
      | ⟨1, _⟩ => exact (br_1 i _).symm)
  rw [el]
  exact congrArg (X (Cert.KernelIdeal.Mat2.gl i k) * ·) er

end Cert.Gcn

end
-- ==== Proof.Chain.lean ====
/-
  The idealized kernel program computes `net`.  Its result buffer's contents at the last boundary are read back
  stretch by stretch, each stretch as ONE named function of the buffers it reads:
    * before the first grid the host operations leave the edges' sources and destinations and, from the in-degrees,
      the nodes' and then the edges' weights — functions of the edge list alone — and touch no argument;
    * the first grid leaves the product `x · W1ᵀ` in its result array and every other buffer as it was;
    * the stretch between the grids is the first round on that product;
    * the second grid leaves the product of the first round's output with `W2ᵀ`;
    * the last stretch is the second round on that product, over the same sources, destinations and weights.
  The two products are the host's two linear maps, so the whole is `net` of the six argument arrays.
-/
import proofs.«128850_j74517682586571_1_alg».proof.Proof.RunOut
import proofs.«128850_j74517682586571_1_alg».proof.Proof.Mat1
import proofs.«128850_j74517682586571_1_alg».proof.Proof.Mat2
import proofs.«128850_j74517682586571_1_alg».proof.Proof.LinIsProd
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first grid: the arguments are untouched -/

theorem pre_arg0 : W3 m ρ c (Proc.devRef .tc main_arg0) = (m ((c : Thread nD τ).loc main_arg0)) := by
  dsimp only [W3, W2, W1, hostOps0, hostOps0_1, hostOps0_2]
  after_results_simp <;> rfl
theorem pre_arg2 : W3 m ρ c (Proc.devRef .tc main_arg2) = (m ((c : Thread nD τ).loc main_arg2)) := by
  dsimp only [W3, W2, W1, hostOps0, hostOps0_1, hostOps0_2]
  after_results_simp <;> rfl
theorem pre_arg3 : W3 m ρ c (Proc.devRef .tc main_arg3) = (m ((c : Thread nD τ).loc main_arg3)) := by
  dsimp only [W3, W2, W1, hostOps0, hostOps0_1, hostOps0_2]
  after_results_simp <;> rfl
theorem pre_arg4 : W3 m ρ c (Proc.devRef .tc main_arg4) = (m ((c : Thread nD τ).loc main_arg4)) := by
  dsimp only [W3, W2, W1, hostOps0, hostOps0_1, hostOps0_2]
  after_results_simp <;> rfl
theorem pre_arg5 : W3 m ρ c (Proc.devRef .tc main_arg5) = (m ((c : Thread nD τ).loc main_arg5)) := by
  dsimp only [W3, W2, W1, hostOps0, hostOps0_1, hostOps0_2]
  after_results_simp <;> rfl

/-! ## Before the first grid: the first stretch, from the edge list -/

/-- The edges' sources. -/
theorem src1 : W1 m ρ c (Proc.devRef .tc main_v5) = Cert.Gcn.srcIdx (F := Ideal) (m ((c : Thread nD τ).loc main_arg1)) := by
  dsimp only [W1, hostOps0]
  after_results_simp
  unfold Cert.Gcn.srcIdx
  rfl
/-- The edges' destinations. -/
theorem dst1 : W1 m ρ c (Proc.devRef .tc main_v6) = Cert.Gcn.dstIdx (F := Ideal) (m ((c : Thread nD τ).loc main_arg1)) := by
  dsimp only [W1, hostOps0]
  after_results_simp
  unfold Cert.Gcn.dstIdx
  rfl
/-- Where the in-degree is positive. -/
theorem pos1 : W1 m ρ c (Proc.devRef .tc main_v12) = cmpf (F := Ideal) .ogt (Cert.Gcn.deg (F := Ideal) (m ((c : Thread nD τ).loc main_arg1))) (broadcastInDim Cert.ReferenceIdeal.S100000 ![] Cert.ReferenceIdeal.Gen.bcast_S_S100000 (constant Cert.ReferenceIdeal.S_ .f32 0x00000000#32)) := by
  dsimp only [W1, hostOps0]
  after_results_simp
  unfold Cert.Gcn.deg Cert.Gcn.col Cert.Gcn.dstIdx
  rfl
/-- The inverse square roots of the in-degrees. -/
theorem rsq1 : W1 m ρ c (Proc.devRef .tc main_v13) = (Host.rsqrt (F := Ideal) (s := Cert.ReferenceIdeal.S100000) (φ := .f32) (Cert.Gcn.deg (F := Ideal) (m ((c : Thread nD τ).loc main_arg1))) : (⟨Cert.ReferenceIdeal.S100000, .f32⟩ : BufTy).Contents (Elt Ideal)) := by
  dsimp only [W1, hostOps0]
  after_results_simp
  unfold Cert.Gcn.deg Cert.Gcn.col Cert.Gcn.dstIdx
  rfl
/-- The scalar zero. -/
theorem zero1 : W1 m ρ c (Proc.devRef .tc main_cst_2) = (constant (F := Ideal) Cert.ReferenceIdeal.S_ .f32 0x00000000#32 : (⟨Cert.ReferenceIdeal.S_, .f32⟩ : BufTy).Contents (Elt Ideal)) := by
  dsimp only [W1, hostOps0]
  after_results_simp <;> rfl

/-! ## The second stretch: the nodes' weights -/

theorem nw2 : W2 m ρ c (Proc.devRef .tc main_v14) = Cert.Gcn.whereElse (F := Ideal) (W1 m ρ c (Proc.devRef .tc main_v12)) (W1 m ρ c (Proc.devRef .tc main_v13)) (W1 m ρ c (Proc.devRef .tc main_cst_2)) := by
  show StableHlo.after hostOps0_1 (W1 m ρ c) (Proc.devRef .tc main_v14) = _
  generalize W1 m ρ c = V
  dsimp only [hostOps0_1]
  after_results_simp
  unfold Cert.Gcn.whereElse
  rfl
theorem src2 : W2 m ρ c (Proc.devRef .tc main_v5) = W1 m ρ c (Proc.devRef .tc main_v5) := by
  show StableHlo.after hostOps0_1 (W1 m ρ c) (Proc.devRef .tc main_v5) = _
  generalize W1 m ρ c = V
  dsimp only [hostOps0_1]
  after_results_simp <;> rfl
theorem dst2 : W2 m ρ c (Proc.devRef .tc main_v6) = W1 m ρ c (Proc.devRef .tc main_v6) := by
  show StableHlo.after hostOps0_1 (W1 m ρ c) (Proc.devRef .tc main_v6) = _
  generalize W1 m ρ c = V
  dsimp only [hostOps0_1]
  after_results_simp <;> rfl

/-! ## The third stretch: the edges' weights -/

theorem wgt3 : W3 m ρ c (Proc.devRef .tc main_v29) = Cert.Gcn.edgeWeightOn (F := Ideal) (W2 m ρ c (Proc.devRef .tc main_v14)) (W2 m ρ c (Proc.devRef .tc main_v5)) (W2 m ρ c (Proc.devRef .tc main_v6)) := by
  show StableHlo.after hostOps0_2 (W2 m ρ c) (Proc.devRef .tc main_v29) = _
  generalize W2 m ρ c = V
  dsimp only [hostOps0_2]
  after_results_simp
  unfold Cert.Gcn.edgeWeightOn Cert.Gcn.wrapCol
  rfl
theorem src3 : W3 m ρ c (Proc.devRef .tc main_v5) = W2 m ρ c (Proc.devRef .tc main_v5) := by
  show StableHlo.after hostOps0_2 (W2 m ρ c) (Proc.devRef .tc main_v5) = _
  generalize W2 m ρ c = V
  dsimp only [hostOps0_2]
  after_results_simp <;> rfl
theorem dst3 : W3 m ρ c (Proc.devRef .tc main_v6) = W2 m ρ c (Proc.devRef .tc main_v6) := by
  show StableHlo.after hostOps0_2 (W2 m ρ c) (Proc.devRef .tc main_v6) = _
  generalize W2 m ρ c = V
  dsimp only [hostOps0_2]
  after_results_simp <;> rfl

/-- The edges' sources, as the first grid finds them. -/
theorem pre_src : W3 m ρ c (Proc.devRef .tc main_v5) = Cert.Gcn.srcIdx (F := Ideal) (m ((c : Thread nD τ).loc main_arg1)) := by
  rw [src3, src2, src1]
/-- The edges' destinations. -/
theorem pre_dst : W3 m ρ c (Proc.devRef .tc main_v6) = Cert.Gcn.dstIdx (F := Ideal) (m ((c : Thread nD τ).loc main_arg1)) := by
  rw [dst3, dst2, dst1]
/-- The edges' weights. -/
theorem pre_wgt : W3 m ρ c (Proc.devRef .tc main_v29) = Cert.Gcn.edgeWeight (F := Ideal) (m ((c : Thread nD τ).loc main_arg1)) := by
  rw [wgt3, nw2, src2, dst2, pos1, rsq1, zero1, src1, dst1]
  rfl

/-! ## The first grid -/

/-- The first grid's result array: the first linear map of the node features. -/
theorem grid1_out : W4 m ρ c (Proc.devRef .tc main_v30) = Cert.Gcn.lin1 (F := Ideal) (m ((c : Thread nD τ).loc main_arg0)) (m ((c : Thread nD τ).loc main_arg2)) := by
  rw [Cert.Gcn.lin1_eq_prod]
  refine ((W4_arr m ρ c 2).trans (Cert.KernelIdeal.Mat1.final (V3 m ρ) c)).trans ?_
  show Cert.KernelIdeal.Mat1.prod (W3 m ρ c (Proc.devRef .tc main_arg0)) (W3 m ρ c (Proc.devRef .tc main_arg2)) = _
  rw [pre_arg0, pre_arg2]

/-! ## Between the grids: the first round -/

theorem round_mid : W5 m ρ c (Proc.devRef .tc main_v46) = Cert.Gcn.roundOn1 (F := Ideal) (W4 m ρ c (Proc.devRef .tc main_v30)) (W4 m ρ c (Proc.devRef .tc main_v5)) (W4 m ρ c (Proc.devRef .tc main_v6)) (W4 m ρ c (Proc.devRef .tc main_v29)) (W4 m ρ c (Proc.devRef .tc main_arg3)) := by
  show StableHlo.after hostOps1 (W4 m ρ c) (Proc.devRef .tc main_v46) = _
  generalize W4 m ρ c = V
  dsimp only [hostOps1]
  after_results_simp
  unfold Cert.Gcn.roundOn1 Cert.Gcn.wrapCol Cert.Gcn.col
  rfl
theorem src5 : W5 m ρ c (Proc.devRef .tc main_v5) = W4 m ρ c (Proc.devRef .tc main_v5) := by
  show StableHlo.after hostOps1 (W4 m ρ c) (Proc.devRef .tc main_v5) = _
  generalize W4 m ρ c = V
  dsimp only [hostOps1]
  after_results_simp <;> rfl
theorem dst5 : W5 m ρ c (Proc.devRef .tc main_v6) = W4 m ρ c (Proc.devRef .tc main_v6) := by
  show StableHlo.after hostOps1 (W4 m ρ c) (Proc.devRef .tc main_v6) = _
  generalize W4 m ρ c = V
  dsimp only [hostOps1]
  after_results_simp <;> rfl
theorem wgt5 : W5 m ρ c (Proc.devRef .tc main_v29) = W4 m ρ c (Proc.devRef .tc main_v29) := by
  show StableHlo.after hostOps1 (W4 m ρ c) (Proc.devRef .tc main_v29) = _
  generalize W4 m ρ c = V
  dsimp only [hostOps1]
  after_results_simp <;> rfl
theorem arg4_5 : W5 m ρ c (Proc.devRef .tc main_arg4) = W4 m ρ c (Proc.devRef .tc main_arg4) := by
  show StableHlo.after hostOps1 (W4 m ρ c) (Proc.devRef .tc main_arg4) = _
  generalize W4 m ρ c = V
  dsimp only [hostOps1]
  after_results_simp <;> rfl
theorem arg5_5 : W5 m ρ c (Proc.devRef .tc main_arg5) = W4 m ρ c (Proc.devRef .tc main_arg5) := by
  show StableHlo.after hostOps1 (W4 m ρ c) (Proc.devRef .tc main_arg5) = _
  generalize W4 m ρ c = V
  dsimp only [hostOps1]
  after_results_simp <;> rfl

/-- The first round's output, as the second grid finds it. -/
theorem mid_out : W5 m ρ c (Proc.devRef .tc main_v46) = Cert.Gcn.round1 (F := Ideal) (Cert.Gcn.lin1 (F := Ideal) (m ((c : Thread nD τ).loc main_arg0)) (m ((c : Thread nD τ).loc main_arg2))) (m ((c : Thread nD τ).loc main_arg1)) (m ((c : Thread nD τ).loc main_arg3)) := by
  rw [round_mid, grid1_out, W4_of_ne m ρ c main_v5 (by decide), W4_of_ne m ρ c main_v6 (by decide), W4_of_ne m ρ c main_v29 (by decide), W4_of_ne m ρ c main_arg3 (by decide), pre_src, pre_dst, pre_wgt, pre_arg3]
  rfl

/-! ## The second grid -/

/-- The second grid's result array: the second linear map of the first round's output. -/
theorem grid2_out : W6 m ρ c (Proc.devRef .tc main_v47) = Cert.Gcn.lin2 (F := Ideal) (Cert.Gcn.round1 (F := Ideal) (Cert.Gcn.lin1 (F := Ideal) (m ((c : Thread nD τ).loc main_arg0)) (m ((c : Thread nD τ).loc main_arg2))) (m ((c : Thread nD τ).loc main_arg1)) (m ((c : Thread nD τ).loc main_arg3))) (m ((c : Thread nD τ).loc main_arg4)) := by
  rw [Cert.Gcn.lin2_eq_prod]
  refine ((W6_arr m ρ c 2).trans (Cert.KernelIdeal.Mat2.final (V5 m ρ) c)).trans ?_
  show Cert.KernelIdeal.Mat2.prod (W5 m ρ c (Proc.devRef .tc main_v46)) (W5 m ρ c (Proc.devRef .tc main_arg4)) = _
  rw [mid_out, arg4_5, W4_of_ne m ρ c main_arg4 (by decide), pre_arg4]

/-! ## After the second grid: the second round -/

theorem round_last : W7 m ρ c (Proc.devRef .tc main_v63) = Cert.Gcn.roundOn2 (F := Ideal) (W6 m ρ c (Proc.devRef .tc main_v47)) (W6 m ρ c (Proc.devRef .tc main_v5)) (W6 m ρ c (Proc.devRef .tc main_v6)) (W6 m ρ c (Proc.devRef .tc main_v29)) (W6 m ρ c (Proc.devRef .tc main_arg5)) := by
  show StableHlo.after hostOps2 (W6 m ρ c) (Proc.devRef .tc main_v63) = _
  generalize W6 m ρ c = V
  dsimp only [hostOps2]
  after_results_simp
  unfold Cert.Gcn.roundOn2 Cert.Gcn.wrapCol Cert.Gcn.col
  rfl

/-- THE RESULT: the last boundary's contents of the result buffer are `net` of the six argument arrays. -/
theorem result_eq : W7 m ρ c (Proc.devRef .tc main_v63) = Cert.Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [round_last, grid2_out, W6_of_ne m ρ c main_v5 (by decide), W6_of_ne m ρ c main_v6 (by decide), W6_of_ne m ρ c main_v29 (by decide), W6_of_ne m ρ c main_arg5 (by decide), src5, dst5, wgt5, arg5_5,
    W4_of_ne m ρ c main_v5 (by decide), W4_of_ne m ρ c main_v6 (by decide), W4_of_ne m ρ c main_v29 (by decide), W4_of_ne m ρ c main_arg5 (by decide), pre_src, pre_dst, pre_wgt, pre_arg5]
  rfl

end Cert.KernelIdeal.Chain

end
-- ==== Proof.RefIsNet.lean ====
/-
  The reference program computes `net`: its result's composed term, with every named piece of `net` opened, is that
  term symbol for symbol — the reference computes the edge weights once per round, from the same edge list, and
  the two copies are the same term.
-/
import proofs.«128850_j74517682586571_1_alg».proof.Proof.RefRun
import proofs.«128850_j74517682586571_1_alg».proof.Proof.Spec

set_option maxRecDepth 16384

noncomputable section

namespace Cert.Gcn

open Cert.ReferenceIdeal Cert.ReferenceIdeal.Gen Idealize.ShloMosaic Idealize.ShloMosaic.TcCoe Idealize.SL.Sem

variable {F : FTy → Type} [FloatOps F]

set_option maxHeartbeats 4000000 in
/-- The reference's result is `net` of its six argument arrays. -/
theorem ref_result_eq (m : (ℓ : Loc nD τ sig) → Buf (Elt F) ℓ) (c : Dev nD) :
    Cert.ReferenceIdeal.ValueP.res_main_v91 (F := F) m c
      = net (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v91 net round2 roundOn2 lin2 round1 roundOn1 lin1 edgeWeight edgeWeightOn nodeWeight whereElse deg wrapCol col srcIdx dstIdx
  rfl

end Cert.Gcn

end
-- ==== Proof.lean ====
/-
  A two-layer graph convolution on 100000 nodes and 1600000 edges, computed two ways.

  Both programs compute, on the extended reals,

      net x e W1 b1 W2 b2 = round₂ (round₁ (x · W1ᵀ) · W2ᵀ),

  where a round gathers, along every edge of the graph `e` (self-loops added), the source node's row, scales it by
  deg(source)^(-1/2) · deg(destination)^(-1/2), sums the scaled rows into the destination's row and adds a bias row.
  The reference forms the two products `x · Wᵀ` by the host's contraction; the kernel program forms each on a grid of 20
  points, point `t` producing rows 5000·t … 5000·t + 4999 from operands rounded to half precision — the identity on the
  extended reals — into a zero accumulator.  The 20 blocks tile the rows, so each grid leaves exactly the product
  array, and every other operation of the two programs is the same operation on the same values (the kernel program
  computes the edge weights once where the reference computes them once per round).  No algebraic law is needed
  beyond reading both contractions as the same sum over the 128 features, and finiteness of the inputs is not used.

  The three frame claims: the two kernel programs' are their segment-by-segment runs; the reference's is its run with
  the result dropped.  The idealization rewrote no operation, so there is nothing to preserve.
-/
import proofs.«128850_j74517682586571_1_alg».proof.Defs
import proofs.«128850_j74517682586571_1_alg».proof.Proof.Gen.Kernel
import proofs.«128850_j74517682586571_1_alg».proof.Proof.Gen.Kernel.Skeleton
import proofs.«128850_j74517682586571_1_alg».proof.Proof.Gen.Kernel.Launch
import proofs.«128850_j74517682586571_1_alg».proof.Proof.Gen.Kernel.Points
import proofs.«128850_j74517682586571_1_alg».proof.Proof.Gen.Kernel.Frame
import proofs.«128850_j74517682586571_1_alg».proof.Proof.Gen.KernelIdeal
import proofs.«128850_j74517682586571_1_alg».proof.Proof.Gen.KernelIdeal.Skeleton
import proofs.«128850_j74517682586571_1_alg».proof.Proof.Gen.KernelIdeal.Launch
import proofs.«128850_j74517682586571_1_alg».proof.Proof.Gen.KernelIdeal.Points
import proofs.«128850_j74517682586571_1_alg».proof.Proof.Gen.KernelIdeal.Frame
import proofs.«128850_j74517682586571_1_alg».proof.Proof.Gen.ReferenceIdeal
import proofs.«128850_j74517682586571_1_alg».proof.Proof.Gen.Pre_finite_inputs
import proofs.«128850_j74517682586571_1_alg».proof.Proof.RunOut
import proofs.«128850_j74517682586571_1_alg».proof.Proof.Chain
import proofs.«128850_j74517682586571_1_alg».proof.Proof.RefRun
import proofs.«128850_j74517682586571_1_alg».proof.Proof.RefIsNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with their result array at `net` of the (agreeing) argument arrays. -/
theorem algebraic : Cert.algebraic_KernelIdeal_ReferenceIdeal := by
  intro m ρ m' ρ' _ hagree
  refine ⟨fun c => Cert.Gcn.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ c), (h c).2⟩)
      (Cert.KernelIdeal.RunOut.run_out m ρ)
  · refine (θ_run Cert.ReferenceIdeal.defs _ _).mono (fun _ h c => ⟨(h c).1.trans ?_, (h c).2⟩)
      (Cert.ReferenceIdeal.ValueP.run (F := Ideal) m' ρ')
    rw [Cert.Gcn.ref_result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
